-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x128 : Shape := ⟨2, ![100000, 128]⟩
abbrev S100000x1 : Shape := ⟨2, ![100000, 1]⟩
abbrev S128x132 : Shape := ⟨2, ![128, 132]⟩
abbrev S128 : Shape := ⟨1, ![128]⟩
abbrev S128x128 : Shape := ⟨2, ![128, 128]⟩
abbrev S3x128 : Shape := ⟨2, ![3, 128]⟩
abbrev S3 : Shape := ⟨1, ![3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S100000x1 : S_.BroadcastsInDim S100000x1 (![] : Fin 0 → Fin S100000x1.rank)
  reducesTo_S100000x1_S_d0_1 : S100000x1.ReducesTo [0, 1] S_
  bcast_S_S128x132 : S_.BroadcastsInDim S128x132 (![] : Fin 0 → Fin S128x132.rank)
  reducesTo_S128x132_S_d0_1 : S128x132.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S3x128 .f32) (main_arg8 : FVec F S3 .f32) (main_v33 : IVec S_ 1) : IVec S_ 1 :=
  let main_v34 : FVec F S3x128 .f32 := Host.absf main_arg7
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S3x128 .f32) (main_arg8 : FVec F S3 .f32) (main_v13 : IVec S_ 1) (main_v16 : IVec S128x132 1) : IVec S_ 1 :=
  let main_c_5 : IVec S_ 1 := constantI S_ 1 1#1
  let main_v17 : IVec S_ 1 := (fun x v => Host.reduce IntOp.andi x v reducesTo_S128x132_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x3 .f32) (main_arg1 : FVec F S100000x128 .f32) (main_arg2 : FVec F S100000x1 .f32) (main_arg3 : FVec F S128x132 .f32) (main_arg4 : FVec F S128 .f32) (main_arg5 : FVec F S128x128 .f32) (main_arg6 : FVec F S128 .f32) (main_arg7 : FVec F S3x128 .f32) (main_arg8 : FVec F S3 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S128x132 .f32 := Host.absf main_arg3
  let main_cst_4 : FVec F S_ .f32 := constant S_ .f32 0x7F800000#32
  let main_v15 : FVec F S128x132 .f32 := broadcastInDim S128x132 ![] bcast_S_S128x132 main_cst_4
  let main_v16 : IVec S128x132 1 := cmpf .olt main_v14 main_v15
  fn_part1 (F := F) main_arg4 main_arg5 main_arg6 main_arg7 main_arg8 main_v13 main_v16
-- ==== Kernel.lean ====
abbrev S100000x3 : Shape := ⟨2, ![100000, 3]⟩
abbrev S100000x128 : Shape := ⟨2, ![100000, 128]⟩
abbrev S100000x1 : Shape := ⟨2, ![100000, 1]⟩
abbrev S128x132 : Shape := ⟨2, ![128, 132]⟩
abbrev S128 : Shape := ⟨1, ![128]⟩
abbrev S128x128 : Shape := ⟨2, ![128, 128]⟩
abbrev S3x128 : Shape := ⟨2, ![3, 128]⟩
abbrev S3 : Shape := ⟨1, ![3]⟩
abbrev S128x3 : Shape := ⟨2, ![128, 3]⟩
abbrev S128x1 : Shape := ⟨2, ![128, 1]⟩
abbrev S1x128 : Shape := ⟨2, ![1, 128]⟩
abbrev S1x3 : Shape := ⟨2, ![1, 3]⟩
abbrev S4000x3 : Shape := ⟨2, ![4000, 3]⟩
abbrev S4000x128 : Shape := ⟨2, ![4000, 128]⟩
abbrev S4000x1 : Shape := ⟨2, ![4000, 1]⟩

abbrev nBuf : Space → Nat
  | .hbm => 25
  | .vmem => 16
  | .smem => 0
  | _ => 0

abbrev bufTy : (tb : Table) → Fin (tcTables nBuf tb) → BufTy
  | .hbm, ⟨0, _⟩ => ⟨S100000x3, .f32⟩
  | .hbm, ⟨1, _⟩ => ⟨S100000x128, .f32⟩
  | .hbm, ⟨2, _⟩ => ⟨S100000x1, .f32⟩
  | .hbm, ⟨3, _⟩ => ⟨S128x132, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S3x128, .f32⟩
  | .hbm, ⟨8, _⟩ => ⟨S3, .f32⟩
  | .hbm, ⟨9, _⟩ => ⟨S128x3, .f32⟩
  | .hbm, ⟨10, _⟩ => ⟨S3x128, .f32⟩
  | .hbm, ⟨11, _⟩ => ⟨S3x128, .bf16⟩
  | .hbm, ⟨12, _⟩ => ⟨S128x128, .f32⟩
  | .hbm, ⟨13, _⟩ => ⟨S128x128, .f32⟩
  | .hbm, ⟨14, _⟩ => ⟨S128x128, .bf16⟩
  | .hbm, ⟨15, _⟩ => ⟨S128x1, .f32⟩
  | .hbm, ⟨16, _⟩ => ⟨S1x128, .f32⟩
  | .hbm, ⟨17, _⟩ => ⟨S128x128, .f32⟩
  | .hbm, ⟨18, _⟩ => ⟨S128x128, .bf16⟩
  | .hbm, ⟨19, _⟩ => ⟨S128x3, .f32⟩
  | .hbm, ⟨20, _⟩ => ⟨S128x3, .bf16⟩
  | .hbm, ⟨21, _⟩ => ⟨S1x128, .f32⟩
  | .hbm, ⟨22, _⟩ => ⟨S1x128, .f32⟩
  | .hbm, ⟨23, _⟩ => ⟨S1x3, .f32⟩
  | .hbm, ⟨24, _⟩ => ⟨S100000x3, .f32⟩
  | .local _ .vmem, ⟨0, _⟩ => ⟨S4000x3, .f32⟩
  | .local _ .vmem, ⟨1, _⟩ => ⟨S4000x3, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S3x128, .bf16⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x3, .bf16⟩
  | .local _ .vmem, ⟨13, _⟩ => ⟨S1x3, .f32⟩
  | .local _ .vmem, ⟨14, _⟩ => ⟨S4000x3, .f32⟩
  | .local _ .vmem, ⟨15, _⟩ => ⟨S4000x3, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x3 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S128x132_S128x3_0_0 : S128x132.Slices ![0, 0] S128x3
  transposes_S128x3_S3x128_1_0 : S128x3.Transposes [1, 0] S3x128
  bitsLt_bf16_f32 : FTy.bits .bf16 < FTy.bits .f32
  slices_S128x132_S128x128_0_3 : S128x132.Slices ![0, 3] S128x128
  transposes_S128x128_S128x128_1_0 : S128x128.Transposes [1, 0] S128x128
  slices_S128x132_S128x1_0_131 : S128x132.Slices ![0, 131] S128x1
  transposes_S128x1_S1x128_1_0 : S128x1.Transposes [1, 0] S1x128
  transposes_S3x128_S128x3_1_0 : S3x128.Transposes [1, 0] S128x3
  shapeCasts_S128_S1x128 : S128.ShapeCasts S1x128
  shapeCasts_S3_S1x3 : S3.ShapeCasts S1x3
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x3_S4000x3_0_0 : ∀ a, (![0, 0] : Fin 2 → Nat) a + S4000x3.size a ≤ S4000x3.size a
  h_S4000x3 : 0 < S4000x3.numel
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S4000x1_S4000x1_0_0 : ∀ a, (![0, 0] : Fin 2 → Nat) a + S4000x1.size a ≤ S4000x1.size a
  h_S4000x1 : 0 < S4000x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4000x3 : S1x3.Broadcasts S4000x3
  dot_S4000x128_S128x128_S4000x128_1_0_0_1_n_n_wf : DotDims.WF S4000x128 S128x128 S4000x128 [1] [0] [0] [1] [] []
  dot_S4000x3_S3x128_S4000x128_1_0_0_1_n_n_wf : DotDims.WF S4000x3 S3x128 S4000x128 [1] [0] [0] [1] [] []
  dot_S4000x128_S128x3_S4000x3_1_0_0_1_n_n_wf : DotDims.WF S4000x128 S128x3 S4000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S100000x3.size a
  hwx0_0 : ∀ i : grid0.Coords, EltTy.bits .f32 = 32 ∨ (Rect.block (s := S100000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .bf16 = 32 ∨ (Rect.block (s := S3x128) S3x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x3.size a ≤ S128x3.size a
  hwx0_9 : ∀ i : grid0.Coords, EltTy.bits .bf16 = 32 ∨ (Rect.block (s := S128x3) S128x3.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3.size a ≤ S1x3.size a
  hwx0_10 : ∀ i : grid0.Coords, EltTy.bits .f32 = 32 ∨ (Rect.block (s := S1x3) S1x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x3.size a ≤ S100000x3.size a
  hwx0_11 : ∀ i : grid0.Coords, EltTy.bits .f32 = 32 ∨ (Rect.block (s := S100000x3) S4000x3.size (cc0_transform_11 i) (hinb0_11 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x3_S3x128_S4000x128_1_0_0_1_n_n : DotDims S4000x3 S3x128 S4000x128 where
  lhsContracting := [1]
  rhsContracting := [0]
  lhsNonContracting := [0]
  rhsNonContracting := [1]
  lhsBatch := []
  rhsBatch := []
  wf := dot_S4000x3_S3x128_S4000x128_1_0_0_1_n_n_wf
def dot_S4000x128_S128x3_S4000x3_1_0_0_1_n_n : DotDims S4000x128 S128x3 S4000x3 where
  lhsContracting := [1]
  rhsContracting := [0]
  lhsNonContracting := [0]
  rhsNonContracting := [1]
  lhsBatch := []
  rhsBatch := []
  wf := dot_S4000x128_S128x3_S4000x3_1_0_0_1_n_n_wf

abbrev win0_0 : Pipeline.Window sig grid0 :=
  Pipeline.Window.ofSpec (Memref.whole main_arg0) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v13) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v11) S128x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v14) S1x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S4000x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x3 : Shape := ⟨2, ![100000, 3]⟩
abbrev S100000x128 : Shape := ⟨2, ![100000, 128]⟩
abbrev S100000x1 : Shape := ⟨2, ![100000, 1]⟩
abbrev S128x132 : Shape := ⟨2, ![128, 132]⟩
abbrev S128 : Shape := ⟨1, ![128]⟩
abbrev S128x128 : Shape := ⟨2, ![128, 128]⟩
abbrev S3x128 : Shape := ⟨2, ![3, 128]⟩
abbrev S3 : Shape := ⟨1, ![3]⟩
abbrev S100000x132 : Shape := ⟨2, ![100000, 132]⟩
abbrev S132x128 : Shape := ⟨2, ![132, 128]⟩
abbrev S1x128 : Shape := ⟨2, ![1, 128]⟩
abbrev S_ : Shape := ⟨0, ![]⟩
abbrev S128x3 : Shape := ⟨2, ![128, 3]⟩
abbrev S1x3 : Shape := ⟨2, ![1, 3]⟩

abbrev nBuf : Space → Nat
  | .hbm => 43
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x128, .f32⟩
  | .hbm, ⟨2, _⟩ => ⟨S100000x1, .f32⟩
  | .hbm, ⟨3, _⟩ => ⟨S128x132, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S3x128, .f32⟩
  | .hbm, ⟨8, _⟩ => ⟨S3, .f32⟩
  | .hbm, ⟨9, _⟩ => ⟨S100000x132, .f32⟩
  | .hbm, ⟨10, _⟩ => ⟨S132x128, .f32⟩
  | .hbm, ⟨11, _⟩ => ⟨S100000x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S_, .f32⟩
  | .hbm, ⟨18, _⟩ => ⟨S100000x128, .f32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S128x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S128x3, .f32⟩
  | .hbm, ⟨39, _⟩ => ⟨S100000x3, .f32⟩
  | .hbm, ⟨40, _⟩ => ⟨S1x3, .f32⟩
  | .hbm, ⟨41, _⟩ => ⟨S100000x3, .f32⟩
  | .hbm, ⟨42, _⟩ => ⟨S100000x3, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩

abbrev nD : Nat := 1
abbrev τ : Topo := Topo.v7x

variable {F : FTy → Type} [FloatOps F]

class Facts₀ : Prop where
  concatenates_S100000x3_S100000x128_S100000x1_S100000x132_d1 : Shape.Concatenates [S100000x3, S100000x128, S100000x1] S100000x132 1
  transposes_S128x132_S132x128_1_0 : S128x132.Transposes [1, 0] S132x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  transposes_S3x128_S128x3_1_0 : S3x128.Transposes [1, 0] S128x3
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x132_S132x128_S100000x128_1_0_0_1_n_n_wf : DotDims.WF S100000x132 S132x128 S100000x128 [1] [0] [0] [1] [] []
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []

variable [Facts₀]

def dot_S100000x132_S132x128_S100000x128_1_0_0_1_n_n : DotDims S100000x132 S132x128 S100000x128 where
  lhsContracting := [1]
  rhsContracting := [0]
  lhsNonContracting := [0]
  rhsNonContracting := [1]
  lhsBatch := []
  rhsBatch := []
  wf := dot_S100000x132_S132x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.LibTiles.lean ====
/-
  Two-dimensional tiles over the extended reals, read entry by entry.

  * a product of an m×k tile by a k×n tile accumulated into the zero tile: entry (a, b) is the sum over the contracted
    coordinate of the products of the entries;
  * a column (an m×1 tile) laid across n columns: entry (a, b) is the column's entry a;
  * a row (a 1×n tile) laid down m rows: entry (a, b) is the row's entry b.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx

variable {m n : Nat}

/-- The product of an m×k tile by a k×n tile (left operand contracted on its columns, right operand on its rows, no
    batch axes), accumulated into the zero tile, read at entry (a, b): the sum over the contracted coordinate `c` of
    `A (a, c) * B (c, b)`. `w` is the well-formedness of the dimension numbers, which a program states. -/
theorem matmul_zero_apply {k : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column laid across the columns of an m×n tile, read at entry (a, b): the column's entry `a`. -/
theorem broadcast_col_apply {α : Type} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) ?_
  intro ax
  match ax with
  | ⟨0, _⟩ =>
    show a.val = if m = 1 then 0 else a.val
    split
    · have := a.isLt; omega
    · rfl
  | ⟨1, _⟩ => rfl

/-- A row laid down the rows of an m×n tile, read at entry (a, b): the row's entry `b`. -/
theorem broadcast_row_apply {α : Type} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) ?_
  intro ax
  match ax with
  | ⟨0, _⟩ => rfl
  | ⟨1, _⟩ =>
    show b.val = if n = 1 then 0 else b.val
    split
    · have := b.isLt; omega
    · rfl

end Cert.LibTiles

end
-- ==== Proof.LibThreeBlocks.lean ====
/-
  Three matrices of equal height set side by side, read at coordinates.

  The concatenation `[x0 | x1 | x2]` along the column axis reads, at `(a, b)`, the block that column `b` falls in, at
  `(a, b - the widths before it)`. The three cases are stated one by one, and once more as a single equation: row `a`
  of the concatenation is the row `row3` made of row `a` of each block.
-/
import Idealize.ShloMosaic.Lib.ValueIdx
import Idealize.ShloMosaic.Lib.Pipeline.Value

namespace Cert.LibThreeBlocks

open Idealize.ShloMosaic Idealize.ShloMosaic.ValueIdx

variable {α : Type}

/-- Three rows of widths `w0`, `w1`, `w2` set side by side, as one row of width `B = w0 + w1 + w2`. -/
def row3 {w0 w1 w2 B : ℕ} (hB : w0 + w1 + w2 = B) (r0 : Fin w0 → α) (r1 : Fin w1 → α) (r2 : Fin w2 → α) (k : Fin B) : α :=
  if h0 : k.val < w0 then r0 ⟨k.val, h0⟩
  else if h1 : k.val < w0 + w1 then r1 ⟨k.val - w0, by omega⟩
  else r2 ⟨k.val - (w0 + w1), by have := k.isLt; omega⟩

/-- `row3` of rows that agree entry by entry. -/
theorem row3_congr {w0 w1 w2 B : ℕ} (hB : w0 + w1 + w2 = B) {r0 r0' : Fin w0 → α} {r1 r1' : Fin w1 → α} {r2 r2' : Fin w2 → α}
    (h0 : ∀ k, r0 k = r0' k) (h1 : ∀ k, r1 k = r1' k) (h2 : ∀ k, r2 k = r2' k) :
    row3 hB r0 r1 r2 = row3 hB r0' r1' r2' := by
  obtain rfl := funext h0
  obtain rfl := funext h1
  obtain rfl := funext h2
  rfl

section Three
variable {A w0 w1 w2 B : ℕ}
  (x0 : (⟨2, ![A, w0]⟩ : Shape).Idx → α) (x1 : (⟨2, ![A, w1]⟩ : Shape).Idx → α)
  (x2 : (⟨2, ![A, w2]⟩ : Shape).Idx → α)
  (h : Shape.Concatenates [⟨2, ![A, w0]⟩, ⟨2, ![A, w1]⟩, ⟨2, ![A, w2]⟩] ⟨2, ![A, B]⟩ 1)
  (a : Fin A) (b : Fin B)

/-- `[x0 | x1 | x2]` at a column of the first block. -/
theorem cat3_0 (hb : b.val < w0) :
    concatenate ⟨2, ![A, B]⟩ 1 [⟨⟨2, ![A, w0]⟩, x0⟩, ⟨⟨2, ![A, w1]⟩, x1⟩, ⟨⟨2, ![A, w2]⟩, x2⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat3_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat3_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- Row `a` of `[x0 | x1 | x2]` is row `a` of each block, set side by side. -/
theorem cat3_apply (hB : w0 + w1 + w2 = B) :
    concatenate ⟨2, ![A, B]⟩ 1 [⟨⟨2, ![A, w0]⟩, x0⟩, ⟨⟨2, ![A, w1]⟩, x1⟩, ⟨⟨2, ![A, w2]⟩, x2⟩] h (ix2 a b)
      = row3 hB (fun k => x0 (ix2 a k)) (fun k => x1 (ix2 a k)) (fun k => x2 (ix2 a k)) b := by
  unfold row3
  have hlt := b.isLt
  by_cases h0 : b.val < w0
  · rw [dif_pos h0]; exact cat3_0 x0 x1 x2 h a b h0
  · rw [dif_neg h0]
    by_cases h1 : b.val < w0 + w1
    · rw [dif_pos h1]; exact cat3_1 x0 x1 x2 h a b (by omega) (by omega)
    · rw [dif_neg h1]; exact cat3_2 x0 x1 x2 h a b (by omega) (by omega)

end Three

end Cert.LibThreeBlocks
-- ==== Proof.Spec.lean ====
/-
  A three-layer perceptron with the smooth gate x · σ(x), one row at a time, over the extended reals.

  A row of the input is three pieces: a short piece `cr` (3 entries), a long piece `fr` (128 entries) and one more
  entry `tr`. The first layer multiplies the row by a 132-column weight matrix, adds a bias and gates the result; the
  second multiplies by a square matrix, adds a bias and gates; the third multiplies by a 3-column matrix and adds a
  bias. Entry q of the result depends on ONE row of the input only, which is why a program that walks over blocks of
  rows and a program that treats all rows at once compute the same array.

  The weights are taken as functions of (contracted coordinate, result coordinate), so that a program holding a
  weight matrix transposed, or cut into column groups, instantiates the same definition.

  The one law used: a sum over the 132 columns of a row laid out as [cr | fr | tr] is the sum over the three pieces.
  It regroups one finite sum in a commutative monoid, so it holds for every extended real, infinite ones included.
-/
import Idealize.ShloMosaic.PureOps.Ideal
import Idealize.ShloMosaic.Lib.ValueIdx
import proofs.«171328_g63050119905556_cont_9to1c4b_27_6_alg».proof.Proof.LibThreeBlocks

noncomputable section

namespace Cert.Mlp

open Idealize.ShloMosaic Idealize.ShloMosaic.ValueIdx Cert.LibThreeBlocks

/-- The gate x · σ(x), σ(x) = 1 / (1 + e⁻ˣ) with its limits at the infinities. -/
def silu (x : EReal) : EReal := x * Ideal.logistic x

/-- Entry j of the first hidden row: the long piece against its weights, the short piece against its weights, the
    last entry against its weight row, the bias; gated. -/
def layer1 (cr : Fin 3 → EReal) (fr : Fin 128 → EReal) (tr : EReal) (wc : Fin 3 → Fin 128 → EReal)
    (wf : Fin 128 → Fin 128 → EReal) (wt b : Fin 128 → EReal) (j : Fin 128) : EReal :=
  silu ((((∑ k : Fin 128, fr k * wf k j) + ∑ k : Fin 3, cr k * wc k j) + tr * wt j) + b j)

/-- Entry j of the second hidden row. -/
def layer2 (h : Fin 128 → EReal) (w : Fin 128 → Fin 128 → EReal) (b : Fin 128 → EReal) (j : Fin 128) : EReal :=
  silu ((∑ k : Fin 128, h k * w k j) + b j)

/-- Entry q of the result row. -/
def layer3 (h : Fin 128 → EReal) (w : Fin 128 → Fin 3 → EReal) (b : Fin 3 → EReal) (q : Fin 3) : EReal :=
  (∑ k : Fin 128, h k * w k q) + b q

/-- The whole network on one row. -/
def mlp (cr : Fin 3 → EReal) (fr : Fin 128 → EReal) (tr : EReal) (wc : Fin 3 → Fin 128 → EReal)
    (wf : Fin 128 → Fin 128 → EReal) (wt b1 : Fin 128 → EReal) (w2 : Fin 128 → Fin 128 → EReal) (b2 : Fin 128 → EReal)
    (w3 : Fin 128 → Fin 3 → EReal) (b3 : Fin 3 → EReal) (q : Fin 3) : EReal :=
  layer3 (layer2 (layer1 cr fr tr wc wf wt b1) w2 b2) w3 b3 q

/-- Column k of the short piece, column 3 + k of the long piece and column 131 of the last entry, as columns of the
    132-column weight matrix. -/
abbrev colC (k : Fin 3) : Fin 132 := ⟨k.val, by have := k.isLt; omega⟩
abbrev colF (k : Fin 128) : Fin 132 := ⟨3 + k.val, by have := k.isLt; omega⟩
abbrev colT : Fin 132 := ⟨131, by omega⟩

/-- The network applied to every row of the argument arrays: the array [100000, 3] both programs compute. `W1`, `W2`,
    `W3` are held (result coordinate, contracted coordinate), as the arguments are. -/
def G (c : (⟨2, ![100000, 3]⟩ : Shape).Idx → EReal) (f : (⟨2, ![100000, 128]⟩ : Shape).Idx → EReal)
    (t : (⟨2, ![100000, 1]⟩ : Shape).Idx → EReal) (W1 : (⟨2, ![128, 132]⟩ : Shape).Idx → EReal)
    (b1 : (⟨1, ![128]⟩ : Shape).Idx → EReal) (W2 : (⟨2, ![128, 128]⟩ : Shape).Idx → EReal)
    (b2 : (⟨1, ![128]⟩ : Shape).Idx → EReal) (W3 : (⟨2, ![3, 128]⟩ : Shape).Idx → EReal)
    (b3 : (⟨1, ![3]⟩ : Shape).Idx → EReal) : (⟨2, ![100000, 3]⟩ : Shape).Idx → EReal := fun i =>
  mlp (fun k => c (ix2 (i 0) k)) (fun k => f (ix2 (i 0) k)) (t (ix2 (i 0) (0 : Fin 1)))
    (fun k j => W1 (ix2 j (colC k))) (fun k j => W1 (ix2 j (colF k))) (fun j => W1 (ix2 j colT)) (fun j => b1 (ix1 j))
    (fun k j => W2 (ix2 j k)) (fun j => b2 (ix1 j)) (fun k q => W3 (ix2 q k)) (fun q => b3 (ix1 q)) (i 1)

/-- The network's value depends on its data entry by entry. -/
theorem mlp_congr {cr cr' : Fin 3 → EReal} {fr fr' : Fin 128 → EReal} {tr tr' : EReal} {wc wc' : Fin 3 → Fin 128 → EReal}
    {wf wf' : Fin 128 → Fin 128 → EReal} {wt wt' b1 b1' : Fin 128 → EReal} {w2 w2' : Fin 128 → Fin 128 → EReal}
    {b2 b2' : Fin 128 → EReal} {w3 w3' : Fin 128 → Fin 3 → EReal} {b3 b3' : Fin 3 → EReal} (q : Fin 3)
    (hc : ∀ k, cr k = cr' k) (hf : ∀ k, fr k = fr' k) (ht : tr = tr') (hwc : ∀ k j, wc k j = wc' k j)
    (hwf : ∀ k j, wf k j = wf' k j) (hwt : ∀ j, wt j = wt' j) (hb1 : ∀ j, b1 j = b1' j) (hw2 : ∀ k j, w2 k j = w2' k j)
    (hb2 : ∀ j, b2 j = b2' j) (hw3 : ∀ k j, w3 k j = w3' k j) (hb3 : ∀ j, b3 j = b3' j) :
    mlp cr fr tr wc wf wt b1 w2 b2 w3 b3 q = mlp cr' fr' tr' wc' wf' wt' b1' w2' b2' w3' b3' q := by
  obtain rfl : cr = cr' := funext hc
  obtain rfl : fr = fr' := funext hf
  obtain rfl := ht
  obtain rfl : wc = wc' := funext fun k => funext (hwc k)
  obtain rfl : wf = wf' := funext fun k => funext (hwf k)
  obtain rfl : wt = wt' := funext hwt
  obtain rfl : b1 = b1' := funext hb1
  obtain rfl : w2 = w2' := funext fun k => funext (hw2 k)
  obtain rfl : b2 = b2' := funext hb2
  obtain rfl : w3 = w3' := funext fun k => funext (hw3 k)
  obtain rfl : b3 = b3' := funext hb3
  rfl

/-! ## A sum over a row made of three pieces -/

section ThreePieces
variable {M : Type*} [AddCommMonoid M]

/-- A sum over w0 + w1 + w2 consecutive positions is the sum over the first w0, the next w1 and the last w2. -/
theorem sum_three {w0 w1 w2 B : ℕ} (hB : w0 + w1 + w2 = B) (h : Fin B → M) :
    ∑ k : Fin B, h k
      = ((∑ k : Fin w0, h ⟨k.val, by have := k.isLt; omega⟩) + ∑ k : Fin w1, h ⟨w0 + k.val, by have := k.isLt; omega⟩)
        + ∑ k : Fin w2, h ⟨w0 + w1 + k.val, by have := k.isLt; omega⟩ := by
  subst hB
  rw [Fin.sum_univ_add, Fin.sum_univ_add]
  rfl

end ThreePieces

/-- The row [cr | fr | tr] against a weight column: the three pieces against their parts of the column. -/
theorem sum_row3_mul (cr : Fin 3 → EReal) (fr : Fin 128 → EReal) (tr : Fin 1 → EReal) (g : Fin 132 → EReal) :
    ∑ k : Fin 132, row3 (show 3 + 128 + 1 = 132 from rfl) cr fr tr k * g k
      = ((∑ k : Fin 128, fr k * g (colF k)) + ∑ k : Fin 3, cr k * g (colC k)) + tr 0 * g colT := by
  rw [sum_three (show 3 + 128 + 1 = 132 from rfl), Fin.sum_univ_one,
    add_comm (∑ k : Fin 3, _) (∑ k : Fin 128, _)]
  refine congrArg₂ (· + ·) (congrArg₂ (· + ·) (Finset.sum_congr rfl fun k _ => ?_) (Finset.sum_congr rfl fun k _ => ?_)) ?_
  · have hk := k.isLt
    have e : row3 (show 3 + 128 + 1 = 132 from rfl) cr fr tr ⟨3 + k.val, by omega⟩ = fr k := by
      unfold row3
      rw [dif_neg (by show ¬ (3 + k.val < 3); omega), dif_pos (by show 3 + k.val < 3 + 128; omega)]
      exact congrArg fr (Fin.ext (by show 3 + k.val - 3 = k.val; omega))
    rw [e]
  · have hk := k.isLt
    have e : row3 (show 3 + 128 + 1 = 132 from rfl) cr fr tr ⟨k.val, by omega⟩ = cr k := by
      unfold row3
      rw [dif_pos (by show k.val < 3; exact hk)]
    rw [e]
  · have e : row3 (show 3 + 128 + 1 = 132 from rfl) cr fr tr ⟨3 + 128 + (0 : Fin 1).val, by decide⟩ = tr 0 := by
      unfold row3
      rw [dif_neg (by decide), dif_neg (by decide)]
      exact congrArg tr (Fin.ext (by decide))
    rw [e]
    rfl

end Cert.Mlp

end
-- ==== Proof.TileSide.lean ====
/-
  The kernel body's value, read entry by entry.

  On one block of 4000 rows the body holds: the three pieces of the rows (`x0` : 4000×3, `x1` : 4000×128, `x2` : 4000×1), the
  first layer's weights cut by column group and transposed (`x3` : 3×128, `x4` : 128×128, `x5` : 1×128) with its bias
  (`x6` : 1×128), the second layer's transposed weights and bias (`x7` : 128×128, `x8` : 1×128) and the third's
  (`x9` : 128×3, `x10` : 1×3). Its stored value is three tile products, each accumulated into a zero tile, with the
  biases laid down the rows and the gate x · σ(x) applied lane by lane; narrowing a tile's format changes no extended
  real. Entry (a, q) of the stored tile is therefore the network of `Cert.Mlp` on row a of the block.
-/
import proofs.«171328_g63050119905556_cont_9to1c4b_27_6_alg».proof.Proof.Gen.KernelIdeal.Skeleton
import proofs.«171328_g63050119905556_cont_9to1c4b_27_6_alg».proof.Proof.LibTiles
import proofs.«171328_g63050119905556_cont_9to1c4b_27_6_alg».proof.Proof.Spec
import Idealize.ShloMosaic.Lib.ValueIdx
import Idealize.ShloMosaic.Lib.Pipeline.Value

noncomputable section

namespace Cert.KernelIdeal.Tile

open Cert.KernelIdeal Cert.KernelIdeal.Gen
open Idealize.ShloMosaic Idealize.ShloMosaic.ValueIdx Cert.Mlp

/-- The first layer before its gate: the long piece's product, the short piece's product, the last entry times its
    weight row, the bias row. -/
def pre1 (x0 : FVec Ideal S4000x3 .f32) (x1 : FVec Ideal S4000x128 .f32) (x2 : FVec Ideal S4000x1 .f32)
    (x3 : FVec Ideal S3x128 .bf16) (x4 : FVec Ideal S128x128 .bf16) (x5 x6 : FVec Ideal S1x128 .f32) :
    FVec Ideal S4000x128 .f32 :=
  addf (addf (addf
    (matmul dot_S4000x128_S128x128_S4000x128_1_0_0_1_n_n none (truncf .bf16 x1 bitsLt_bf16_f32)
      (shapeCast S128x128 x4 shapeCasts_S128x128_S128x128) (constant S4000x128 .f32 0x00000000#32))
    (matmul dot_S4000x3_S3x128_S4000x128_1_0_0_1_n_n none (truncf .bf16 x0 bitsLt_bf16_f32)
      (shapeCast S3x128 x3 shapeCasts_S3x128_S3x128) (constant S4000x128 .f32 0x00000000#32)))
    (mulf (broadcastTo S4000x128 x2 broadcasts_S4000x1_S4000x128)
      (broadcastTo S4000x128 (shapeCast S1x128 x5 shapeCasts_S1x128_S1x128) broadcasts_S1x128_S4000x128)))
    (broadcastTo S4000x128 (shapeCast S1x128 x6 shapeCasts_S1x128_S1x128) broadcasts_S1x128_S4000x128)

/-- The gate on a tile, narrowed. -/
def gate (v : FVec Ideal S4000x128 .f32) : FVec Ideal S4000x128 .bf16 :=
  truncf .bf16 (mulf v (logistic v)) bitsLt_bf16_f32

/-- The second layer before its gate. -/
def pre2 (h : FVec Ideal S4000x128 .bf16) (x7 : FVec Ideal S128x128 .bf16) (x8 : FVec Ideal S1x128 .f32) :
    FVec Ideal S4000x128 .f32 :=
  addf (matmul dot_S4000x128_S128x128_S4000x128_1_0_0_1_n_n none h
      (shapeCast S128x128 x7 shapeCasts_S128x128_S128x128) (constant S4000x128 .f32 0x00000000#32))
    (broadcastTo S4000x128 (shapeCast S1x128 x8 shapeCasts_S1x128_S1x128) broadcasts_S1x128_S4000x128)

/-- The third layer. -/
def last (h : FVec Ideal S4000x128 .bf16) (x9 : FVec Ideal S128x3 .bf16) (x10 : FVec Ideal S1x3 .f32) :
    FVec Ideal S4000x3 .f32 :=
  addf (matmul dot_S4000x128_S128x3_S4000x3_1_0_0_1_n_n none h
      (shapeCast S128x3 x9 shapeCasts_S128x3_S128x3) (constant S4000x3 .f32 0x00000000#32))
    (broadcastTo S4000x3 (shapeCast S1x3 x10 shapeCasts_S1x3_S1x3) broadcasts_S1x3_S4000x3)

/-- The body's stored value is these stages composed. -/
theorem pay_eq (x0 : FVec Ideal S4000x3 .f32) (x1 : FVec Ideal S4000x128 .f32) (x2 : FVec Ideal S4000x1 .f32)
    (x3 : FVec Ideal S3x128 .bf16) (x4 : FVec Ideal S128x128 .bf16) (x5 x6 : FVec Ideal S1x128 .f32)
    (x7 : FVec Ideal S128x128 .bf16) (x8 : FVec Ideal S1x128 .f32) (x9 : FVec Ideal S128x3 .bf16)
    (x10 : FVec Ideal S1x3 .f32) :
    k0_pay1 (F := Ideal) (k0_pay2 (F := Ideal) x1 x4 x0 x3 x2 x5 x6 x7 x8) x9 x10
      = last (gate (pre2 (gate (pre1 x0 x1 x2 x3 x4 x5 x6)) x7 x8)) x9 x10 := rfl

/-- The first layer before its gate, at (a, j). -/
theorem pre1_apply (x0 : FVec Ideal S4000x3 .f32) (x1 : FVec Ideal S4000x128 .f32) (x2 : FVec Ideal S4000x1 .f32)
    (x3 : FVec Ideal S3x128 .bf16) (x4 : FVec Ideal S128x128 .bf16) (x5 x6 : FVec Ideal S1x128 .f32)
    (a : Fin 4000) (j : Fin 128) :
    pre1 x0 x1 x2 x3 x4 x5 x6 (ix2 a j)
      = (((∑ k : Fin 128, x1 (ix2 a k) * x4 (ix2 k j)) + ∑ k : Fin 3, x0 (ix2 a k) * x3 (ix2 k j))
          + x2 (ix2 a (0 : Fin 1)) * x5 (ix2 (0 : Fin 1) j)) + x6 (ix2 (0 : Fin 1) j) := by
  unfold pre1
  rw [addf_apply, addf_apply, addf_apply, mulf_apply]
  refine congrArg₂ (· + ·) (congrArg₂ (· + ·) (congrArg₂ (· + ·) ?_ ?_) (congrArg₂ (· * ·) ?_ ?_)) ?_
  · refine (LibTiles.matmul_zero_apply dot_S4000x128_S128x128_S4000x128_1_0_0_1_n_n_wf none _ _ a j).trans ?_
    refine Finset.sum_congr rfl fun k _ => ?_
    rw [truncf_apply, shapeCast_self]
  · refine (LibTiles.matmul_zero_apply dot_S4000x3_S3x128_S4000x128_1_0_0_1_n_n_wf none _ _ a j).trans ?_
    refine Finset.sum_congr rfl fun k _ => ?_
    rw [truncf_apply, shapeCast_self]
  · exact LibTiles.broadcast_col_apply x2 broadcasts_S4000x1_S4000x128 a j
  · rw [LibTiles.broadcast_row_apply _ broadcasts_S1x128_S4000x128 a j, shapeCast_self]
  · rw [LibTiles.broadcast_row_apply _ broadcasts_S1x128_S4000x128 a j, shapeCast_self]

/-- The gate at an entry. -/
theorem gate_apply (v : FVec Ideal S4000x128 .f32) (i : S4000x128.Idx) : gate v i = silu (v i) := rfl

/-- The second layer before its gate, at (a, j). -/
theorem pre2_apply (h : FVec Ideal S4000x128 .bf16) (x7 : FVec Ideal S128x128 .bf16) (x8 : FVec Ideal S1x128 .f32)
    (a : Fin 4000) (j : Fin 128) :
    pre2 h x7 x8 (ix2 a j) = (∑ k : Fin 128, h (ix2 a k) * x7 (ix2 k j)) + x8 (ix2 (0 : Fin 1) j) := by
  unfold pre2
  rw [addf_apply]
  refine congrArg₂ (· + ·) ?_ ?_
  · refine (LibTiles.matmul_zero_apply dot_S4000x128_S128x128_S4000x128_1_0_0_1_n_n_wf none _ _ a j).trans ?_
    refine Finset.sum_congr rfl fun k _ => ?_
    rw [shapeCast_self]
  · rw [LibTiles.broadcast_row_apply _ broadcasts_S1x128_S4000x128 a j, shapeCast_self]

/-- The third layer at (a, q). -/
theorem last_apply (h : FVec Ideal S4000x128 .bf16) (x9 : FVec Ideal S128x3 .bf16) (x10 : FVec Ideal S1x3 .f32)
    (a : Fin 4000) (q : Fin 3) :
    last h x9 x10 (ix2 a q) = (∑ k : Fin 128, h (ix2 a k) * x9 (ix2 k q)) + x10 (ix2 (0 : Fin 1) q) := by
  unfold last
  rw [addf_apply]
  refine congrArg₂ (· + ·) ?_ ?_
  · refine (LibTiles.matmul_zero_apply dot_S4000x128_S128x3_S4000x3_1_0_0_1_n_n_wf none _ _ a q).trans ?_
    refine Finset.sum_congr rfl fun k _ => ?_
    rw [shapeCast_self]
  · rw [LibTiles.broadcast_row_apply _ broadcasts_S1x3_S4000x3 a q, shapeCast_self]

/-- ENTRY (a, q) OF THE STORED TILE: the network on row a of the block, with the block's weight tiles read
    (contracted coordinate, result coordinate). -/
theorem pay_apply (x0 : FVec Ideal S4000x3 .f32) (x1 : FVec Ideal S4000x128 .f32) (x2 : FVec Ideal S4000x1 .f32)
    (x3 : FVec Ideal S3x128 .bf16) (x4 : FVec Ideal S128x128 .bf16) (x5 x6 : FVec Ideal S1x128 .f32)
    (x7 : FVec Ideal S128x128 .bf16) (x8 : FVec Ideal S1x128 .f32) (x9 : FVec Ideal S128x3 .bf16)
    (x10 : FVec Ideal S1x3 .f32) (a : Fin 4000) (q : Fin 3) :
    k0_pay1 (F := Ideal) (k0_pay2 (F := Ideal) x1 x4 x0 x3 x2 x5 x6 x7 x8) x9 x10 (ix2 a q)
      = mlp (fun k => x0 (ix2 a k)) (fun k => x1 (ix2 a k)) (x2 (ix2 a (0 : Fin 1)))
          (fun k j => x3 (ix2 k j)) (fun k j => x4 (ix2 k j)) (fun j => x5 (ix2 (0 : Fin 1) j))
          (fun j => x6 (ix2 (0 : Fin 1) j)) (fun k j => x7 (ix2 k j)) (fun j => x8 (ix2 (0 : Fin 1) j))
          (fun k q => x9 (ix2 k q)) (fun q => x10 (ix2 (0 : Fin 1) q)) q := by
  rw [pay_eq, last_apply]
  unfold mlp layer3
  refine congrArg (· + x10 (ix2 (0 : Fin 1) q)) (Finset.sum_congr rfl fun k _ => ?_)
  refine congrArg (· * x9 (ix2 k q)) ?_
  rw [gate_apply, pre2_apply]
  unfold layer2
  refine congrArg silu (congrArg (· + x8 (ix2 (0 : Fin 1) k)) (Finset.sum_congr rfl fun k' _ => ?_))
  refine congrArg (· * x7 (ix2 k' k)) ?_
  rw [gate_apply, pre1_apply]
  rfl

end Cert.KernelIdeal.Tile

end
-- ==== Proof.WeightTiles.lean ====
/-
  The arrays the kernel region finds, read entry by entry.

  Before the region the host cuts the first layer's weight matrix W1 (128 × 132) into its column groups — columns
  0..2, columns 3..130 and column 131 — and transposes each, transposes W2 and W3, and lays each bias out as a one-row
  matrix; narrowing a matrix's format changes no extended real. So each array a weight window stages is a re-indexing
  of one argument: entry (k, j) of a transposed group is entry (j, column of k) of W1, and so on. The three row-block
  arguments are found as launched.
-/
import proofs.«171328_g63050119905556_cont_9to1c4b_27_6_alg».proof.Proof.Gen.KernelIdeal.Frame
import proofs.«171328_g63050119905556_cont_9to1c4b_27_6_alg».proof.Proof.Spec
import Idealize.ShloMosaic.Lib.ValueIdx
import Idealize.ShloMosaic.Lib.Pipeline.Value
import Idealize.ShloMosaic.Lib.StableHlo.Run

noncomputable section

namespace Cert.KernelIdeal.Prep

open Cert.KernelIdeal Cert.KernelIdeal.Gen
open Idealize.ShloMosaic Idealize.ShloMosaic.TcCoe Idealize.SL.Sem Idealize.ShloMosaic.ValueIdx Cert.Mlp

variable (m : (ℓ : Loc nD τ sig) → Buf (Elt Ideal) ℓ)

/-- The short piece's weights: entry (k, j) is W1 (j, k). -/
theorem w1c_apply (c : Dev nD) (k : Fin 3) (j : Fin 128) :
    (V m c main_call0_v2 : S3x128.Idx → EReal) (ix2 k j) = (m ((c : Thread nD τ).loc main_arg3) : S128x132.Idx → EReal) (ix2 j (colC k)) := by
  have e : (V m c main_call0_v2 : S3x128.Idx → EReal)
      = truncf (F := Ideal) .bf16 (transpose S3x128 [1, 0] (extractStridedSlice S128x3 ![0, 0]
          (m ((c : Thread nD τ).loc main_arg3) : S128x132.Idx → EReal) slices_S128x132_S128x3_0_0) transposes_S128x3_S3x128_1_0) bitsLt_bf16_f32 := by
    dsimp only [V, hostOps0]; after_results; rfl
  refine (congrFun e _).trans ?_
  rw [truncf_apply]
  refine (transpose_apply [1, 0] _ transposes_S128x3_S3x128_1_0 (ix2 k j) (ix2 j k) (fun b => match b with
    | ⟨0, _⟩ => rfl
    | ⟨1, _⟩ => rfl)).trans ?_
  exact extractStridedSlice_apply ![0, 0] _ slices_S128x132_S128x3_0_0 (ix2 j k) (ix2 j (colC k)) (fun a => match a with
    | ⟨0, _⟩ => by show j.val = 0 + j.val; omega
    | ⟨1, _⟩ => by show k.val = 0 + k.val; omega)

/-- The long piece's weights: entry (k, j) is W1 (j, 3 + k). -/
theorem w1f_apply (c : Dev nD) (k : Fin 128) (j : Fin 128) :
    (V m c main_call0_v5 : S128x128.Idx → EReal) (ix2 k j) = (m ((c : Thread nD τ).loc main_arg3) : S128x132.Idx → EReal) (ix2 j (colF k)) := by
  have e : (V m c main_call0_v5 : S128x128.Idx → EReal)
      = truncf (F := Ideal) .bf16 (transpose S128x128 [1, 0] (extractStridedSlice S128x128 ![0, 3]
          (m ((c : Thread nD τ).loc main_arg3) : S128x132.Idx → EReal) slices_S128x132_S128x128_0_3) transposes_S128x128_S128x128_1_0) bitsLt_bf16_f32 := by
    dsimp only [V, hostOps0]; after_results; rfl
  refine (congrFun e _).trans ?_
  rw [truncf_apply]
  refine (transpose_apply [1, 0] _ transposes_S128x128_S128x128_1_0 (ix2 k j) (ix2 j k) (fun b => match b with
    | ⟨0, _⟩ => rfl
    | ⟨1, _⟩ => rfl)).trans ?_
  exact extractStridedSlice_apply ![0, 3] _ slices_S128x132_S128x128_0_3 (ix2 j k) (ix2 j (colF k)) (fun a => match a with
    | ⟨0, _⟩ => by show j.val = 0 + j.val; omega
    | ⟨1, _⟩ => by show 3 + k.val = 3 + k.val; rfl)

/-- The last entry's weight row: entry (0, j) is W1 (j, 131). -/
theorem w1t_apply (c : Dev nD) (j : Fin 128) :
    (V m c main_call0_v7 : S1x128.Idx → EReal) (ix2 (0 : Fin 1) j) = (m ((c : Thread nD τ).loc main_arg3) : S128x132.Idx → EReal) (ix2 j colT) := by
  have e : (V m c main_call0_v7 : S1x128.Idx → EReal)
      = transpose S1x128 [1, 0] (extractStridedSlice S128x1 ![0, 131]
          (m ((c : Thread nD τ).loc main_arg3) : S128x132.Idx → EReal) slices_S128x132_S128x1_0_131) transposes_S128x1_S1x128_1_0 := by
    dsimp only [V, hostOps0]; after_results; rfl
  refine (congrFun e _).trans ?_
  refine (transpose_apply [1, 0] _ transposes_S128x1_S1x128_1_0 (ix2 (0 : Fin 1) j) (ix2 j (0 : Fin 1)) (fun b => match b with
    | ⟨0, _⟩ => rfl
    | ⟨1, _⟩ => rfl)).trans ?_
  exact extractStridedSlice_apply ![0, 131] _ slices_S128x132_S128x1_0_131 (ix2 j (0 : Fin 1)) (ix2 j colT) (fun a => match a with
    | ⟨0, _⟩ => by show j.val = 0 + j.val; omega
    | ⟨1, _⟩ => by show 131 = 131 + 0; rfl)

/-- The second layer's weights: entry (k, j) is W2 (j, k). -/
theorem w2_apply (c : Dev nD) (k : Fin 128) (j : Fin 128) :
    (V m c main_call0_v9 : S128x128.Idx → EReal) (ix2 k j) = (m ((c : Thread nD τ).loc main_arg5) : S128x128.Idx → EReal) (ix2 j k) := by
  have e : (V m c main_call0_v9 : S128x128.Idx → EReal)
      = truncf (F := Ideal) .bf16 (transpose S128x128 [1, 0]
          (m ((c : Thread nD τ).loc main_arg5) : S128x128.Idx → EReal) transposes_S128x128_S128x128_1_0) bitsLt_bf16_f32 := by
    dsimp only [V, hostOps0]; after_results; rfl
  refine (congrFun e _).trans ?_
  rw [truncf_apply]
  exact transpose_apply [1, 0] _ transposes_S128x128_S128x128_1_0 (ix2 k j) (ix2 j k) (fun b => match b with
    | ⟨0, _⟩ => rfl
    | ⟨1, _⟩ => rfl)

/-- The third layer's weights: entry (k, q) is W3 (q, k). -/
theorem w3_apply (c : Dev nD) (k : Fin 128) (q : Fin 3) :
    (V m c main_call0_v11 : S128x3.Idx → EReal) (ix2 k q) = (m ((c : Thread nD τ).loc main_arg7) : S3x128.Idx → EReal) (ix2 q k) := by
  have e : (V m c main_call0_v11 : S128x3.Idx → EReal)
      = truncf (F := Ideal) .bf16 (transpose S128x3 [1, 0]
          (m ((c : Thread nD τ).loc main_arg7) : S3x128.Idx → EReal) transposes_S3x128_S128x3_1_0) bitsLt_bf16_f32 := by
    dsimp only [V, hostOps0]; after_results; rfl
  refine (congrFun e _).trans ?_
  rw [truncf_apply]
  exact transpose_apply [1, 0] _ transposes_S3x128_S128x3_1_0 (ix2 k q) (ix2 q k) (fun b => match b with
    | ⟨0, _⟩ => rfl
    | ⟨1, _⟩ => rfl)

/-- A vector of n entries laid out as a one-row matrix: entry (0, j) is entry j. -/
theorem row_cast_apply {n : ℕ} {α : Type} (x : (⟨1, ![n]⟩ : Shape).Idx → α) (h : (⟨1, ![n]⟩ : Shape).ShapeCasts ⟨2, ![1, n]⟩) (j : Fin n) :
    shapeCast ⟨2, ![1, n]⟩ x h (ix2 (0 : Fin 1) j) = x (ix1 j) := by
  refine shapeCast_apply x h (ix2 (0 : Fin 1) j) (ix1 j) ?_
  rw [Shape.rowMajor_val_one, Shape.rowMajor_val_two]
  show j.val = (0 : Fin 1).val * n + j.val
  simp

/-- The first bias as a row. -/
theorem b1_apply (c : Dev nD) (j : Fin 128) :
    (V m c main_call0_v12 : S1x128.Idx → EReal) (ix2 (0 : Fin 1) j) = (m ((c : Thread nD τ).loc main_arg4) : S128.Idx → EReal) (ix1 j) := by
  have e : (V m c main_call0_v12 : S1x128.Idx → EReal)
      = shapeCast S1x128 (m ((c : Thread nD τ).loc main_arg4) : S128.Idx → EReal) shapeCasts_S128_S1x128 := by
    dsimp only [V, hostOps0]; after_results; rfl
  exact (congrFun e _).trans (row_cast_apply _ shapeCasts_S128_S1x128 j)

/-- The second bias as a row. -/
theorem b2_apply (c : Dev nD) (j : Fin 128) :
    (V m c main_call0_v13 : S1x128.Idx → EReal) (ix2 (0 : Fin 1) j) = (m ((c : Thread nD τ).loc main_arg6) : S128.Idx → EReal) (ix1 j) := by
  have e : (V m c main_call0_v13 : S1x128.Idx → EReal)
      = shapeCast S1x128 (m ((c : Thread nD τ).loc main_arg6) : S128.Idx → EReal) shapeCasts_S128_S1x128 := by
    dsimp only [V, hostOps0]; after_results; rfl
  exact (congrFun e _).trans (row_cast_apply _ shapeCasts_S128_S1x128 j)

/-- The third bias as a row. -/
theorem b3_apply (c : Dev nD) (q : Fin 3) :
    (V m c main_call0_v14 : S1x3.Idx → EReal) (ix2 (0 : Fin 1) q) = (m ((c : Thread nD τ).loc main_arg8) : S3.Idx → EReal) (ix1 q) := by
  have e : (V m c main_call0_v14 : S1x3.Idx → EReal)
      = shapeCast S1x3 (m ((c : Thread nD τ).loc main_arg8) : S3.Idx → EReal) shapeCasts_S3_S1x3 := by
    dsimp only [V, hostOps0]; after_results; rfl
  exact (congrFun e _).trans (row_cast_apply _ shapeCasts_S3_S1x3 q)

end Cert.KernelIdeal.Prep

end
-- ==== Proof.BlockEntries.lean ====
/-
  The blocks each grid point stages, entry by entry.

  The grid has 25 points. Point t stages rows 4000·t … 4000·t + 3999 of the three row-block arguments and of the result,
  and the whole of every weight array. So entry (a, k) of a row block is entry (4000·t + a, k) of its argument, and an
  entry of a staged weight tile is the entry of the weight argument that the host's re-indexing put there.
-/
import proofs.«171328_g63050119905556_cont_9to1c4b_27_6_alg».proof.Proof.Gen.KernelIdeal.Value
import proofs.«171328_g63050119905556_cont_9to1c4b_27_6_alg».proof.Proof.WeightTiles
import proofs.«171328_g63050119905556_cont_9to1c4b_27_6_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx Cert.Mlp
open Idealize.ShloMosaic.Pipeline (Dat)

variable (m : (ℓ : Loc nD τ sig) → Buf (Elt Ideal) ℓ) (ρ : Dev nD → PrngReg)

/-- The network applied to every row of the argument arrays as launched on core `c`. -/
def Gm (c : Dev nD) : Buf (Elt Ideal) ((c : Thread nD τ).loc main_v0) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem zero_corner : (![0, 0] : Fin 2 → Nat) = fun _ => 0 := funext fun a => by fin_cases a <;> rfl

/-! ## The index maps over the 25 points: the row-block windows and the result move with the point, the weight windows
    stay at block (0, 0) -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-- Row a of block t is row 4000·t + a of the arrays. -/
def row (t : Fin cfg0.N) (a : Fin 4000) : Fin 100000 :=
  ⟨t.val * 4000 + a.val, by have h25 : t.val < 25 := lt_of_lt_of_eq t.isLt N_0; have := a.isLt; omega⟩

/-- Row a of window 0's block at point t is row 4000·t + a of its argument. -/
theorem blk0 (c : Dev nD) (t : Fin cfg0.N) (a : Fin 4000) (k : Fin 3) :
    iblk m c 0 t (ix2 a k) = (m ((c : Thread nD τ).loc main_arg0) : S100000x3.Idx → EReal) (ix2 (row t a) k) := by
  obtain ⟨e0, e1⟩ := idx0 t
  show V m c main_arg0 (((cfg0.win 0).blk t).view.emb (ix2 a k)) = _
  rw [V_main_arg0]
  exact congrArg _ (funext fun d => Fin.ext (by
    match d with
    | ⟨0, _⟩ => show win0_0.index t (0 : Fin 2) * 4000 + 1 * a.val = t.val * 4000 + a.val; omega
    | ⟨1, _⟩ => show win0_0.index t (1 : Fin 2) * 3 + 1 * k.val = k.val; omega))

/-- Row a of window 1's block at point t is row 4000·t + a of its argument. -/
theorem blk1 (c : Dev nD) (t : Fin cfg0.N) (a : Fin 4000) (k : Fin 128) :
    iblk m c 1 t (ix2 a k) = (m ((c : Thread nD τ).loc main_arg1) : S100000x128.Idx → EReal) (ix2 (row t a) k) := by
  obtain ⟨e0, e1⟩ := idx1 t
  show V m c main_arg1 (((cfg0.win 1).blk t).view.emb (ix2 a k)) = _
  rw [V_main_arg1]
  exact congrArg _ (funext fun d => Fin.ext (by
    match d with
    | ⟨0, _⟩ => show win0_1.index t (0 : Fin 2) * 4000 + 1 * a.val = t.val * 4000 + a.val; omega
    | ⟨1, _⟩ => show win0_1.index t (1 : Fin 2) * 128 + 1 * k.val = k.val; omega))

/-- Row a of window 2's block at point t is row 4000·t + a of its argument. -/
theorem blk2 (c : Dev nD) (t : Fin cfg0.N) (a : Fin 4000) (k : Fin 1) :
    iblk m c 2 t (ix2 a k) = (m ((c : Thread nD τ).loc main_arg2) : S100000x1.Idx → EReal) (ix2 (row t a) k) := by
  obtain ⟨e0, e1⟩ := idx2 t
  show V m c main_arg2 (((cfg0.win 2).blk t).view.emb (ix2 a k)) = _
  rw [V_main_arg2]
  exact congrArg _ (funext fun d => Fin.ext (by
    match d with
    | ⟨0, _⟩ => show win0_2.index t (0 : Fin 2) * 4000 + 1 * a.val = t.val * 4000 + a.val; omega
    | ⟨1, _⟩ => show win0_2.index t (1 : Fin 2) * 1 + 1 * k.val = k.val; omega))

/-- Window 3 stages the whole of the short piece's transposed weights at every point. -/
theorem blk3 (c : Dev nD) (t : Fin cfg0.N) (k : Fin 3) (j : Fin 128) :
    iblk m c 3 t (ix2 k j) = (m ((c : Thread nD τ).loc main_arg3) : S128x132.Idx → EReal) (ix2 j (colC k)) := by
  obtain ⟨e0, e1⟩ := idx3 t
  show V m c main_call0_v2 (((cfg0.win 3).blk t).view.emb (ix2 k j)) = _
  rw [show ((cfg0.win 3).blk t).view.emb (ix2 k j) = ix2 k j from (funext fun d => Fin.ext (by
    match d with
    | ⟨0, _⟩ => show win0_3.index t (0 : Fin 2) * 3 + 1 * (k).val = (k).val; omega
    | ⟨1, _⟩ => show win0_3.index t (1 : Fin 2) * 128 + 1 * (j).val = (j).val; omega))]
  exact Prep.w1c_apply m c k j

/-- Window 4 stages the whole of the long piece's transposed weights at every point. -/
theorem blk4 (c : Dev nD) (t : Fin cfg0.N) (k : Fin 128) (j : Fin 128) :
    iblk m c 4 t (ix2 k j) = (m ((c : Thread nD τ).loc main_arg3) : S128x132.Idx → EReal) (ix2 j (colF k)) := by
  obtain ⟨e0, e1⟩ := idx4 t
  show V m c main_call0_v5 (((cfg0.win 4).blk t).view.emb (ix2 k j)) = _
  rw [show ((cfg0.win 4).blk t).view.emb (ix2 k j) = ix2 k j from (funext fun d => Fin.ext (by
    match d with
    | ⟨0, _⟩ => show win0_4.index t (0 : Fin 2) * 128 + 1 * (k).val = (k).val; omega
    | ⟨1, _⟩ => show win0_4.index t (1 : Fin 2) * 128 + 1 * (j).val = (j).val; omega))]
  exact Prep.w1f_apply m c k j

/-- Window 5 stages the whole of the last entry's weight row at every point. -/
theorem blk5 (c : Dev nD) (t : Fin cfg0.N) (j : Fin 128) :
    iblk m c 5 t (ix2 (0 : Fin 1) j) = (m ((c : Thread nD τ).loc main_arg3) : S128x132.Idx → EReal) (ix2 j colT) := by
  obtain ⟨e0, e1⟩ := idx5 t
  show V m c main_call0_v7 (((cfg0.win 5).blk t).view.emb (ix2 (0 : Fin 1) j)) = _
  rw [show ((cfg0.win 5).blk t).view.emb (ix2 (0 : Fin 1) j) = ix2 (0 : Fin 1) j from (funext fun d => Fin.ext (by
    match d with
    | ⟨0, _⟩ => show win0_5.index t (0 : Fin 2) * 1 + 1 * ((0 : Fin 1)).val = ((0 : Fin 1)).val; omega
    | ⟨1, _⟩ => show win0_5.index t (1 : Fin 2) * 128 + 1 * (j).val = (j).val; omega))]
  exact Prep.w1t_apply m c j

/-- Window 6 stages the whole of the first bias row at every point. -/
theorem blk6 (c : Dev nD) (t : Fin cfg0.N) (j : Fin 128) :
    iblk m c 6 t (ix2 (0 : Fin 1) j) = (m ((c : Thread nD τ).loc main_arg4) : S128.Idx → EReal) (ix1 j) := by
  obtain ⟨e0, e1⟩ := idx6 t
  show V m c main_call0_v12 (((cfg0.win 6).blk t).view.emb (ix2 (0 : Fin 1) j)) = _
  rw [show ((cfg0.win 6).blk t).view.emb (ix2 (0 : Fin 1) j) = ix2 (0 : Fin 1) j from (funext fun d => Fin.ext (by
    match d with
    | ⟨0, _⟩ => show win0_6.index t (0 : Fin 2) * 1 + 1 * ((0 : Fin 1)).val = ((0 : Fin 1)).val; omega
    | ⟨1, _⟩ => show win0_6.index t (1 : Fin 2) * 128 + 1 * (j).val = (j).val; omega))]
  exact Prep.b1_apply m c j

/-- Window 7 stages the whole of the second layer's transposed weights at every point. -/
theorem blk7 (c : Dev nD) (t : Fin cfg0.N) (k : Fin 128) (j : Fin 128) :
    iblk m c 7 t (ix2 k j) = (m ((c : Thread nD τ).loc main_arg5) : S128x128.Idx → EReal) (ix2 j k) := by
  obtain ⟨e0, e1⟩ := idx7 t
  show V m c main_call0_v9 (((cfg0.win 7).blk t).view.emb (ix2 k j)) = _
  rw [show ((cfg0.win 7).blk t).view.emb (ix2 k j) = ix2 k j from (funext fun d => Fin.ext (by
    match d with
    | ⟨0, _⟩ => show win0_7.index t (0 : Fin 2) * 128 + 1 * (k).val = (k).val; omega
    | ⟨1, _⟩ => show win0_7.index t (1 : Fin 2) * 128 + 1 * (j).val = (j).val; omega))]
  exact Prep.w2_apply m c k j

/-- Window 8 stages the whole of the second bias row at every point. -/
theorem blk8 (c : Dev nD) (t : Fin cfg0.N) (j : Fin 128) :
    iblk m c 8 t (ix2 (0 : Fin 1) j) = (m ((c : Thread nD τ).loc main_arg6) : S128.Idx → EReal) (ix1 j) := by
  obtain ⟨e0, e1⟩ := idx8 t
  show V m c main_call0_v13 (((cfg0.win 8).blk t).view.emb (ix2 (0 : Fin 1) j)) = _
  rw [show ((cfg0.win 8).blk t).view.emb (ix2 (0 : Fin 1) j) = ix2 (0 : Fin 1) j from (funext fun d => Fin.ext (by
    match d with
    | ⟨0, _⟩ => show win0_8.index t (0 : Fin 2) * 1 + 1 * ((0 : Fin 1)).val = ((0 : Fin 1)).val; omega
    | ⟨1, _⟩ => show win0_8.index t (1 : Fin 2) * 128 + 1 * (j).val = (j).val; omega))]
  exact Prep.b2_apply m c j

/-- Window 9 stages the whole of the third layer's transposed weights at every point. -/
theorem blk9 (c : Dev nD) (t : Fin cfg0.N) (k : Fin 128) (j : Fin 3) :
    iblk m c 9 t (ix2 k j) = (m ((c : Thread nD τ).loc main_arg7) : S3x128.Idx → EReal) (ix2 j k) := by
  obtain ⟨e0, e1⟩ := idx9 t
  show V m c main_call0_v11 (((cfg0.win 9).blk t).view.emb (ix2 k j)) = _
  rw [show ((cfg0.win 9).blk t).view.emb (ix2 k j) = ix2 k j from (funext fun d => Fin.ext (by
    match d with
    | ⟨0, _⟩ => show win0_9.index t (0 : Fin 2) * 128 + 1 * (k).val = (k).val; omega
    | ⟨1, _⟩ => show win0_9.index t (1 : Fin 2) * 3 + 1 * (j).val = (j).val; omega))]
  exact Prep.w3_apply m c k j

/-- Window 10 stages the whole of the third bias row at every point. -/
theorem blk10 (c : Dev nD) (t : Fin cfg0.N) (j : Fin 3) :
    iblk m c 10 t (ix2 (0 : Fin 1) j) = (m ((c : Thread nD τ).loc main_arg8) : S3.Idx → EReal) (ix1 j) := by
  obtain ⟨e0, e1⟩ := idx10 t
  show V m c main_call0_v14 (((cfg0.win 10).blk t).view.emb (ix2 (0 : Fin 1) j)) = _
  rw [show ((cfg0.win 10).blk t).view.emb (ix2 (0 : Fin 1) j) = ix2 (0 : Fin 1) j from (funext fun d => Fin.ext (by
    match d with
    | ⟨0, _⟩ => show win0_10.index t (0 : Fin 2) * 1 + 1 * ((0 : Fin 1)).val = ((0 : Fin 1)).val; omega
    | ⟨1, _⟩ => show win0_10.index t (1 : Fin 2) * 3 + 1 * (j).val = (j).val; omega))]
  exact Prep.b3_apply m c j

/-- Entry (a, q) of the result's block at point t is entry (4000·t + a, q) of the result. -/
theorem out_emb (t : Fin cfg0.N) (a : Fin 4000) (q : Fin 3) :
    ((cfg0.win 11).blk t).view.emb (ix2 a q) = ix2 (row t a) q := by
  obtain ⟨e0, e1⟩ := idx11 t
  exact funext fun d => Fin.ext (by
    match d with
    | ⟨0, _⟩ => show win0_11.index t (0 : Fin 2) * 4000 + 1 * a.val = t.val * 4000 + a.val; omega
    | ⟨1, _⟩ => show win0_11.index t (1 : Fin 2) * 3 + 1 * q.val = q.val; omega)

end Cert.KernelIdeal.Whole

end
-- ==== Proof.Blocks.lean ====
/-
  From blocks of rows to the whole array.

  Entry (a, q) of what the body stores at point t is the network on row a of the block, and row a of block t is row
  4000·t + a of the arguments: what point t writes back is block t of ONE array, the network applied to every row of the
  arguments. The 25 blocks cover all 100000 rows (row r lies in block r / 4000), so that array is what the result holds
  after the run.
-/
import proofs.«171328_g63050119905556_cont_9to1c4b_27_6_alg».proof.Proof.Gen.KernelIdeal.Value
import proofs.«171328_g63050119905556_cont_9to1c4b_27_6_alg».proof.Proof.TileSide
import proofs.«171328_g63050119905556_cont_9to1c4b_27_6_alg».proof.Proof.BlockEntries
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx Cert.Mlp
open Idealize.ShloMosaic.Pipeline (Dat)

variable (m : (ℓ : Loc nD τ sig) → Buf (Elt Ideal) ℓ) (ρ : Dev nD → PrngReg)

/-- WHAT POINT t WRITES BACK is block t of the network applied to every row. -/
theorem flushed_eq (c : Dev nD) (t : Fin cfg0.N) :
    (dats m 0 c).flushed 11 t = ((cfg0.win 11).blk t).view.read (Elt Ideal) (Gm m c) := by
  rw [flushed11]
  unfold out0_11
  rw [View.canon_unit_zero zero_corner]
  simp only [View.ld_unit_zero (S := S4000x3) zero_corner, View.ld_unit_zero (S := S4000x128) zero_corner,
    View.ld_unit_zero (S := S4000x1) zero_corner, View.ld_unit_zero (S := S3x128) zero_corner,
    View.ld_unit_zero (S := S128x128) zero_corner, View.ld_unit_zero (S := S1x128) zero_corner,
    View.ld_unit_zero (S := S128x3) zero_corner, View.ld_unit_zero (S := S1x3) zero_corner]
  funext y
  obtain ⟨a, q, rfl⟩ : ∃ (a : Fin 4000) (q : Fin 3), y = ix2 a q := ⟨y 0, y 1, eq_ix2 y⟩
  show k0_pay1 (F := Ideal) (k0_pay2 (F := Ideal) (iblk m c 1 t) (iblk m c 4 t) (iblk m c 0 t) (iblk m c 3 t) (iblk m c 2 t) (iblk m c 5 t) (iblk m c 6 t) (iblk m c 7 t) (iblk m c 8 t)) (iblk m c 9 t) (iblk m c 10 t) (ix2 a q)
    = Gm m c (((cfg0.win 11).blk t).view.emb (ix2 a q))
  rw [out_emb t a q]
  refine (Tile.pay_apply (iblk m c 0 t) (iblk m c 1 t) (iblk m c 2 t) (iblk m c 3 t) (iblk m c 4 t) (iblk m c 5 t) (iblk m c 6 t) (iblk m c 7 t) (iblk m c 8 t) (iblk m c 9 t) (iblk m c 10 t) a q).trans ?_
  refine Eq.trans (mlp_congr q (blk0 m c t a) (blk1 m c t a) (blk2 m c t a 0) (blk3 m c t) (blk4 m c t) (blk5 m c t)
    (blk6 m c t) (blk7 m c t) (blk8 m c t) (blk9 m c t) (blk10 m c t)) ?_
  rfl

/-- An index of the result is in point t's block iff each coordinate is in the block's range on its axis. -/
theorem mem_blk (t : Fin cfg0.N) (i : S100000x3.Idx) :
    i ∈ ((cfg0.win 11).blk t).view.set ↔ ∀ a : Fin 2, win0_11.index t a * S4000x3.size a ≤ (i a).val ∧ (i a).val < win0_11.index t a * S4000x3.size a + S4000x3.size a := by
  show i ∈ ((View.whole main_v0).slice (win0_11.rect t)).set ↔ _
  rw [View.set_slice_whole, Rect.mem_set_unit]
  exact Iff.rfl

/-- Every index of the result lies in some point's block: row r in block r / 4000. -/
theorem cover (i : S100000x3.Idx) :
    ∃ t : Fin cfg0.N, (cfg0.win 11).flush t = true ∧ i ∈ ((cfg0.win 11).blk t).view.set := by
  have hi0 : (i 0).val < 100000 := (i 0).isLt
  have hi1 : (i 1).val < 3 := (i 1).isLt
  obtain ⟨t, ht⟩ : ∃ t : Fin cfg0.N, t.val = (i 0).val / 4000 :=
    ⟨⟨(i 0).val / 4000, lt_of_lt_of_eq (by omega : (i 0).val / 4000 < 25) N_0.symm⟩, rfl⟩
  obtain ⟨e0, e1⟩ := idx11 t
  refine ⟨t, flush0_11 t, ?_⟩
  rw [mem_blk]
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 3 ≤ (i 1).val ∧ (i 1).val < win0_11.index t (1 : Fin 2) * 3 + 3; omega

/-- THE RESULT ARRAY after the run is the network applied to every row of the arguments. -/
theorem final (c : Dev nD) : (dats m 0 c).arrAt 11 cfg0.N = Gm m c :=
  (dats m 0 c).arrAt_eq_of_cover 11 (Gm m c) (fun t _ => flushed_eq m c t) cover

/-- The kernel's run: it terminates with the result at that array and the arguments unchanged. -/
theorem run : θ_run defs (onTc (τ := τ) (main (F := Ideal))) ⟨m, fun _ => 0, ρ⟩ fun r => ∀ c : Dev nD,
      r.2.mem ((c : Thread nD τ).loc main_v0) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Whole

end
-- ==== Proof.RefSide.lean ====
/-
  The reference, read entry by entry.

  The reference sets the three pieces of every row side by side, multiplies by the transposed first weight matrix, adds
  the bias and gates with x · (1 / (1 + e⁻ˣ)); multiplies by the transposed second matrix, adds, gates; multiplies by the
  transposed third matrix and adds. Entry (r, q) of its result is the network of `Cert.Mlp` on row r: the sum over the
  132 columns of [c | f | t] against a weight row is the sum over the three pieces (`sum_row3_mul`), and the quotient
  spelling of the gate is the logistic function itself at every extended real.
-/
import proofs.«171328_g63050119905556_cont_9to1c4b_27_6_alg».proof.Proof.Gen.ReferenceIdeal.Read
import proofs.«171328_g63050119905556_cont_9to1c4b_27_6_alg».proof.Proof.LibThreeBlocks
import proofs.«171328_g63050119905556_cont_9to1c4b_27_6_alg».proof.Proof.Spec
import Idealize.ShloMosaic.Lib.IdealHost
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.Mlp Cert.LibThreeBlocks

/-- An f32 array's contents at the exact instance. -/
abbrev Arr (s : Shape) : Type := (⟨s, .f32⟩ : BufTy).Contents (Elt Ideal)

/-- The gate spelled y · (1 / (1 + e^(−y))) with the host's operations is y · σ(y). -/
theorem host_gate (y : EReal) :
    FloatOps.mulf (F := Ideal) (φ := .f32) y (FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) y)))) = silu y := by
  simp only [Ideal.mulf_def, Ideal.hostDivf_def, Ideal.addf_def, Ideal.hostUnary_exp_def, Ideal.hostNegf_def, Ideal.negf_def,
    Ideal.ofBits_def, Ideal.ofBits_one_f32]
  rfl

variable (x0 : Arr S100000x3) (x1 : Arr S100000x128) (x2 : Arr S100000x1) (x3 : Arr S128x132) (x4 : Arr S128)
  (x5 : Arr S128x128) (x6 : Arr S128) (x7 : Arr S3x128) (x8 : Arr S3)

/-- The first hidden layer at (r, j). -/
theorem hidden1_eq (r : Fin 100000) (j : Fin 128) :
    val_main_v6 (F := Ideal) x0 x1 x2 x3 x4 (ix2 r j)
      = layer1 (fun k => x0 (ix2 r k)) (fun k => x1 (ix2 r k)) (x2 (ix2 r (0 : Fin 1)))
          (fun k j => x3 (ix2 j (colC k))) (fun k j => x3 (ix2 j (colF k))) (fun j => x3 (ix2 j colT)) (fun j => x4 (ix1 j)) j := by
  have pre : val_main_v5 (F := Ideal) x0 x1 x2 x3 x4 (ix2 r j)
      = (((∑ k : Fin 128, x1 (ix2 r k) * x3 (ix2 j (colF k))) + ∑ k : Fin 3, x0 (ix2 r k) * x3 (ix2 j (colC k)))
          + x2 (ix2 r (0 : Fin 1)) * x3 (ix2 j colT)) + x4 (ix1 j) := by
    rw [val_main_v5_apply, val_main_v2_apply, val_main_v4_apply, val_main_v3_apply, Ideal.addf_def]
    refine congrArg₂ (· + ·) ?_ ?_
    · refine (Finset.sum_congr rfl fun k _ => ?_).trans
        (sum_row3_mul (fun k => x0 (ix2 r k)) (fun k => x1 (ix2 r k)) (fun k => x2 (ix2 r k)) (fun k => x3 (ix2 j k)))
      refine congrArg₂ (· * ·) ?_ ?_
      · have hl : lidx_main_v2 (ix2 r j) k = ix2 r k := (funext fun a => Fin.ext (by match a with | ⟨0, _⟩ => rfl | ⟨1, _⟩ => rfl))
        rw [hl]
        unfold val_main_v0
        exact cat3_apply x0 x1 x2 concatenates_S100000x3_S100000x128_S100000x1_S100000x132_d1 r k rfl
      · rw [val_main_v1_apply]
        exact congrArg x3 (funext fun a => Fin.ext (by match a with | ⟨0, _⟩ => rfl | ⟨1, _⟩ => rfl))
    · exact congrArg x4 (funext fun a => Fin.ext (by match a with | ⟨0, _⟩ => rfl))
  rw [val_main_v6_apply, val_main_call0_v5_apply, val_main_call0_v4_apply, val_main_call0_cst_0_apply,
    val_main_call0_v3_apply, val_main_call0_v2_apply, val_main_call0_cst_apply, val_main_call0_v1_apply,
    val_main_call0_v0_apply, pre]
  exact host_gate _

/-- The second hidden layer at (r, j), over the first. -/
theorem hidden2_eq (r : Fin 100000) (j : Fin 128) :
    val_main_v12 (F := Ideal) x0 x1 x2 x3 x4 x5 x6 (ix2 r j)
      = layer2 (fun k => val_main_v6 (F := Ideal) x0 x1 x2 x3 x4 (ix2 r k)) (fun k j => x5 (ix2 j k)) (fun j => x6 (ix1 j)) j := by
  have pre : val_main_v11 (F := Ideal) x0 x1 x2 x3 x4 x5 x6 (ix2 r j)
      = (∑ k : Fin 128, val_main_v6 (F := Ideal) x0 x1 x2 x3 x4 (ix2 r k) * x5 (ix2 j k)) + x6 (ix1 j) := by
    rw [val_main_v11_apply, val_main_v8_apply, val_main_v10_apply, val_main_v9_apply, Ideal.addf_def]
    refine congrArg₂ (· + ·) (Finset.sum_congr rfl fun k _ => congrArg₂ (· * ·) ?_ ?_) ?_
    · exact congrArg (val_main_v6 (F := Ideal) x0 x1 x2 x3 x4) (funext fun a => Fin.ext (by match a with | ⟨0, _⟩ => rfl | ⟨1, _⟩ => rfl))
    · rw [val_main_v7_apply]
      exact congrArg x5 (funext fun a => Fin.ext (by match a with | ⟨0, _⟩ => rfl | ⟨1, _⟩ => rfl))
    · exact congrArg x6 (funext fun a => Fin.ext (by match a with | ⟨0, _⟩ => rfl))
  rw [val_main_v12_apply, val_main_call1_v5_apply, val_main_call1_v4_apply, val_main_call1_cst_0_apply,
    val_main_call1_v3_apply, val_main_call1_v2_apply, val_main_call1_cst_apply, val_main_call1_v1_apply,
    val_main_call1_v0_apply, pre]
  exact host_gate _

/-- The result at (r, q), over the second hidden layer. -/
theorem out_eq (r : Fin 100000) (q : Fin 3) :
    val_main_v17 (F := Ideal) x0 x1 x2 x3 x4 x5 x6 x7 x8 (ix2 r q)
      = layer3 (fun k => val_main_v12 (F := Ideal) x0 x1 x2 x3 x4 x5 x6 (ix2 r k)) (fun k q => x7 (ix2 q k)) (fun q => x8 (ix1 q)) q := by
  rw [val_main_v17_apply, val_main_v14_apply, val_main_v16_apply, val_main_v15_apply, Ideal.addf_def]
  refine congrArg₂ (· + ·) (Finset.sum_congr rfl fun k _ => congrArg₂ (· * ·) ?_ ?_) ?_
  · exact congrArg (val_main_v12 (F := Ideal) x0 x1 x2 x3 x4 x5 x6) (funext fun a => Fin.ext (by match a with | ⟨0, _⟩ => rfl | ⟨1, _⟩ => rfl))
  · rw [val_main_v13_apply]
    exact congrArg x7 (funext fun a => Fin.ext (by match a with | ⟨0, _⟩ => rfl | ⟨1, _⟩ => rfl))
  · exact congrArg x8 (funext fun a => Fin.ext (by match a with | ⟨0, _⟩ => rfl))

/-- THE REFERENCE'S RESULT is the network applied to every row of the arguments. -/
theorem ref_eq : val_main_v17 (F := Ideal) x0 x1 x2 x3 x4 x5 x6 x7 x8 = G x0 x1 x2 x3 x4 x5 x6 x7 x8 := by
  funext i
  obtain ⟨r, q, rfl⟩ : ∃ (r : Fin 100000) (q : Fin 3), i = ix2 r q := ⟨i 0, i 1, eq_ix2 i⟩
  rw [out_eq]
  show _ = layer3 (layer2 (layer1 (fun k => x0 (ix2 r k)) (fun k => x1 (ix2 r k)) (x2 (ix2 r (0 : Fin 1)))
      (fun k j => x3 (ix2 j (colC k))) (fun k j => x3 (ix2 j (colF k))) (fun j => x3 (ix2 j colT)) (fun j => x4 (ix1 j)))
      (fun k j => x5 (ix2 j k)) (fun j => x6 (ix1 j))) (fun k q => x7 (ix2 q k)) (fun q => x8 (ix1 q)) q
  refine congrArg (fun h => layer3 h (fun k q => x7 (ix2 q k)) (fun q => x8 (ix1 q)) q) (funext fun k => ?_)
  rw [hidden2_eq]
  refine congrArg (fun h => layer2 h (fun k j => x5 (ix2 j k)) (fun j => x6 (ix1 j)) k) (funext fun k' => ?_)
  exact hidden1_eq x0 x1 x2 x3 x4 r k'

end Cert.ReferenceIdeal.RefValue

end
-- ==== Proof.lean ====
/-
  A three-layer perceptron with the gate x · σ(x) over 100000 rows: a kernel that walks over 25 blocks of 4000 rows, with
  the first weight matrix cut into the column groups of the three input pieces, against a reference that sets the pieces
  side by side and multiplies once.

  Over the extended reals both compute, at entry (r, q), the network of `Cert.Mlp` on row r of the arguments:

  * the kernel, because entry (a, q) of what its body stores is the network on row a of the staged block
    (`Tile.pay_apply`), the staged weight tiles are re-indexings of the weight arguments (`Prep`), row a of block t is
    row 4000·t + a, and the 25 blocks cover the result (`Whole.final`);
  * the reference, because a sum over the 132 columns of [c | f | t] is the sum over the three pieces — a regrouping of
    one finite sum, valid at infinite entries too — and its quotient spelling of the gate is the logistic function
    (`RefValue.ref_eq`).

  No step needs the entries to be finite, so the precondition is not opened. The three runs (termination, no fault,
  arguments unchanged) are the generated frames and the generated run of the reference; the idealization rewrote
  nothing, so there is nothing to preserve.
-/
import proofs.«171328_g63050119905556_cont_9to1c4b_27_6_alg».proof.Defs
import proofs.«171328_g63050119905556_cont_9to1c4b_27_6_alg».proof.Proof.Gen.Kernel
import proofs.«171328_g63050119905556_cont_9to1c4b_27_6_alg».proof.Proof.Gen.Kernel.Skeleton
import proofs.«171328_g63050119905556_cont_9to1c4b_27_6_alg».proof.Proof.Gen.Kernel.Launch
import proofs.«171328_g63050119905556_cont_9to1c4b_27_6_alg».proof.Proof.Gen.Kernel.Points
import proofs.«171328_g63050119905556_cont_9to1c4b_27_6_alg».proof.Proof.Gen.Kernel.Frame
import proofs.«171328_g63050119905556_cont_9to1c4b_27_6_alg».proof.Proof.Gen.KernelIdeal
import proofs.«171328_g63050119905556_cont_9to1c4b_27_6_alg».proof.Proof.Gen.KernelIdeal.Skeleton
import proofs.«171328_g63050119905556_cont_9to1c4b_27_6_alg».proof.Proof.Gen.KernelIdeal.Launch
import proofs.«171328_g63050119905556_cont_9to1c4b_27_6_alg».proof.Proof.Gen.KernelIdeal.Points
import proofs.«171328_g63050119905556_cont_9to1c4b_27_6_alg».proof.Proof.Gen.KernelIdeal.Frame
import proofs.«171328_g63050119905556_cont_9to1c4b_27_6_alg».proof.Proof.Gen.ReferenceIdeal
import proofs.«171328_g63050119905556_cont_9to1c4b_27_6_alg».proof.Proof.Gen.Pre_finite_inputs
import proofs.«171328_g63050119905556_cont_9to1c4b_27_6_alg».proof.Proof.Gen.KernelIdeal.Value
import proofs.«171328_g63050119905556_cont_9to1c4b_27_6_alg».proof.Proof.Gen.ReferenceIdeal.Run
import proofs.«171328_g63050119905556_cont_9to1c4b_27_6_alg».proof.Proof.Gen.ReferenceIdeal.Read
import proofs.«171328_g63050119905556_cont_9to1c4b_27_6_alg».proof.Proof.Blocks
import proofs.«171328_g63050119905556_cont_9to1c4b_27_6_alg».proof.Proof.RefSide
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the network applied to every row. -/
theorem algebraic : Cert.algebraic_KernelIdeal_ReferenceIdeal := by
  intro m ρ m' ρ' _ hagree
  refine ⟨fun c => Cert.KernelIdeal.Whole.Gm m c, Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8⟩ := hagree c
  rw [(h c).1, Cert.ReferenceIdeal.Read.val_main_v17_eq, Cert.ReferenceIdeal.RefValue.ref_eq, a0, a1, a2, a3, a4, a5, a6, a7, a8]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
